-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S1x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  main_v38

def fn_part1 {F : FTy → Type} [FloatOps F] (main_arg4 : FVec F S2048x2048 .f32) (main_arg5 : FVec F S1x2048 .f32) (main_arg6 : FVec F S1x2048 .f32) (main_arg7 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_v33

def fn {F : FTy → Type} [FloatOps F] (main_arg0 : FVec F S1024x2048 .f32) (main_arg1 : FVec F S2048x2048 .f32) (main_arg2 : FVec F S2048x2048 .f32) (main_arg3 : FVec F S2048x2048 .f32) (main_arg4 : FVec F S2048x2048 .f32) (main_arg5 : FVec F S1x2048 .f32) (main_arg6 : FVec F S1x2048 .f32) (main_arg7 : FVec F S1x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S1024x2048 : Shape := ⟨2, ![1024, 2048]⟩
abbrev S2048x2048 : Shape := ⟨2, ![2048, 2048]⟩
abbrev S1x2048 : Shape := ⟨2, ![1, 2048]⟩
abbrev S2048x256 : Shape := ⟨2, ![2048, 256]⟩
abbrev S1x256 : Shape := ⟨2, ![1, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1024x2048, .f32⟩
  | .local _ .vmem, ⟨0, _⟩ => ⟨S1024x2048, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  inb_S1024x2048_S1024x2048_0_0 : ∀ a, (![0, 0] : Fin 2 → Nat) a + S1024x2048.size a ≤ S1024x2048.size a
  h_S1024x2048 : 0 < S1024x2048.numel
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .f32 = 32 ∨ (Rect.block (s := S2048x2048) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x2048.size a
  hwx0_8 : ∀ i : grid0.Coords, EltTy.bits .f32 = 32 ∨ (Rect.block (s := S1024x2048) S1024x256.size (cc0_transform_8 i) (hinb0_8 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x2048 : Shape := ⟨2, ![2048, 2048]⟩
abbrev S1x2048 : Shape := ⟨2, ![1, 2048]⟩
abbrev S1024x512 : Shape := ⟨2, ![1024, 512]⟩
abbrev S512x256 : Shape := ⟨2, ![512, 256]⟩
abbrev S1x256 : Shape := ⟨2, ![1, 256]⟩
abbrev S1024x256 : Shape := ⟨2, ![1024, 256]⟩

abbrev nBuf : Space → Nat
  | .hbm => 9
  | .vmem => 19
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1024x2048, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x2048.size a
  hwx0_0 : ∀ i : grid0.Coords, EltTy.bits .f32 = 32 ∨ (Rect.block (s := S1024x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x2048.size a
  hwx0_1 : ∀ i : grid0.Coords, EltTy.bits .f32 = 32 ∨ (Rect.block (s := S2048x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x2048.size a
  hwx0_2 : ∀ i : grid0.Coords, EltTy.bits .f32 = 32 ∨ (Rect.block (s := S2048x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x2048.size a
  hwx0_4 : ∀ i : grid0.Coords, EltTy.bits .f32 = 32 ∨ (Rect.block (s := S2048x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x2048.size a
  hwx0_8 : ∀ i : grid0.Coords, EltTy.bits .f32 = 32 ∨ (Rect.block (s := S1024x2048) S1024x256.size (cc0_transform_8 i) (hinb0_8 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== Proof.LayerSpec.lean ====
/-
  The sampled Bayesian linear layer as ONE function of its eight argument arrays, over the extended reals:

      y[b, n] = (∑ k < 2048, x[b, k] · w[k, n]) + bias[n],
      w[k, n] = cγ[k, n] · (μ[k, n] + σ[k, n] · ε[k, n]),      bias[n] = μb[n] + σb[n] · εb[n],

  and the one law the two programs differ by: a sum over the 2048 contraction positions is the sum of the four
  partial sums over the positions 512·j + kk (j < 4, kk < 512), taken in order from zero. Addition of extended reals
  is commutative and associative with unit 0 (a commutative monoid), which is all the regrouping uses: nothing here
  asks the entries to be finite.
-/
import Idealize.ShloMosaic.Lib.ValueIdx
import Idealize.ShloMosaic.PureOps.Ideal

noncomputable section

open scoped BigOperators

namespace Cert.SampledLinear

open Idealize.ShloMosaic Idealize.ShloMosaic.ValueIdx

/-! ## Contraction positions, block by block -/

/-- Position `kk` of contraction block `j`: `512·j + kk`. -/
def kpos (j : Fin 4) (kk : Fin 512) : Fin 2048 := ⟨512 * j.val + kk.val, by omega⟩

@[simp] theorem kpos_val (j : Fin 4) (kk : Fin 512) : (kpos j kk).val = 512 * j.val + kk.val := rfl

/-- Every contraction position is position `k % 512` of block `k / 512`, and of no other. -/
def kposEquiv : Fin 4 × Fin 512 ≃ Fin 2048 where
  toFun p := kpos p.1 p.2
  invFun k := (⟨k.val / 512, by omega⟩, ⟨k.val % 512, Nat.mod_lt _ (by decide)⟩)
  left_inv := by
    rintro ⟨j, kk⟩
    refine Prod.ext (Fin.ext ?_) (Fin.ext ?_)
    · show (512 * j.val + kk.val) / 512 = j.val
      omega
    · show (512 * j.val + kk.val) % 512 = kk.val
      omega
  right_inv := by
    intro k
    refine Fin.ext ?_
    show 512 * (k.val / 512) + k.val % 512 = k.val
    omega

/-- A sum over the 2048 contraction positions, regrouped: from zero, the four blocks' partial sums added in order. -/
theorem sum_by_blocks {M : Type*} [AddCommMonoid M] (f : Fin 2048 → M) :
    ∑ k, f k = (((0 + ∑ kk, f (kpos 0 kk)) + ∑ kk, f (kpos 1 kk)) + ∑ kk, f (kpos 2 kk)) + ∑ kk, f (kpos 3 kk) := by
  rw [← Equiv.sum_comp kposEquiv f, Fintype.sum_prod_type, Fin.sum_univ_four, zero_add]
  rfl

/-! ## Output columns, tile by tile -/

/-- Column `q` of output-column tile `o`: `256·o + q`. -/
def col (o : Fin 8) (q : Fin 256) : Fin 2048 := ⟨256 * o.val + q.val, by omega⟩

@[simp] theorem col_val (o : Fin 8) (q : Fin 256) : (col o q).val = 256 * o.val + q.val := rfl

/-! ## The layer -/

/-- A matrix of extended reals of the given extents. -/
abbrev Mat (r c : Nat) : Type := (⟨2, ![r, c]⟩ : Shape).Idx → EReal

/-- The sampled weight at (k, n): `cγ · (μ + σ · ε)`. -/
def weight (cg wmu wsig eps : Mat 2048 2048) (k n : Fin 2048) : EReal :=
  cg (ix2 k n) * (wmu (ix2 k n) + wsig (ix2 k n) * eps (ix2 k n))

/-- The sampled bias at n: `μb + σb · εb`. -/
def bias (bmu bsig epsb : Mat 1 2048) (n : Fin 2048) : EReal :=
  bmu (ix2 0 n) + bsig (ix2 0 n) * epsb (ix2 0 n)

/-- The layer's output: row `b` of `x` against column `n` of the sampled weight, plus the sampled bias at `n`. -/
def layer (x : Mat 1024 2048) (cg wmu wsig eps : Mat 2048 2048) (bmu bsig epsb : Mat 1 2048) : Mat 1024 2048 :=
  fun i => (∑ k : Fin 2048, x (ix2 (i 0) k) * weight cg wmu wsig eps k (i 1)) + bias bmu bsig epsb (i 1)

/-- The same output with the contraction taken block by block, from zero: what an accumulator over four
    contraction blocks ends holding, plus the bias. -/
theorem layer_by_blocks (x : Mat 1024 2048) (cg wmu wsig eps : Mat 2048 2048) (bmu bsig epsb : Mat 1 2048)
    (p : Fin 1024) (n : Fin 2048) :
    layer x cg wmu wsig eps bmu bsig epsb (ix2 p n)
      = ((((0 + ∑ kk, x (ix2 p (kpos 0 kk)) * weight cg wmu wsig eps (kpos 0 kk) n)
            + ∑ kk, x (ix2 p (kpos 1 kk)) * weight cg wmu wsig eps (kpos 1 kk) n)
            + ∑ kk, x (ix2 p (kpos 2 kk)) * weight cg wmu wsig eps (kpos 2 kk) n)
            + ∑ kk, x (ix2 p (kpos 3 kk)) * weight cg wmu wsig eps (kpos 3 kk) n)
          + bias bmu bsig epsb n := by
  show (∑ k : Fin 2048, x (ix2 p k) * weight cg wmu wsig eps k n) + bias bmu bsig epsb n = _
  rw [sum_by_blocks (fun k => x (ix2 p k) * weight cg wmu wsig eps k n)]

end Cert.SampledLinear

end
-- ==== Proof.OneDot.lean ====
/-
  The kernel at the ideal values: eight grid points, one per tile of 256 output columns. At point `t` the body forms
  the sampled weight's column tile `w = cγ · (μ + σ · ε)` (2048 × 256), takes ONE product of all of `x` (1024 × 2048)
  with it over the whole contraction range, and adds the sampled bias's tile `μb + σb · εb` to every row. Read at an
  index the product is a plain sum over the 2048 contraction positions, so the tile written back at `t` is the tile of
  `SampledLinear.layer` at columns `256·t … 256·t + 255`; the eight tiles cover the result array.
-/
import proofs.«159107_g2000605425660429_pallaspilot1_180_9_alg».proof.Proof.Gen.KernelIdeal.Value
import proofs.«159107_g2000605425660429_pallaspilot1_180_9_alg».proof.Proof.LayerSpec
import Idealize.ShloMosaic.Lib.ValueIdx
import Idealize.ShloMosaic.Lib.Pipeline.Value
import Idealize.ShloMosaic.PureOps.Ideal.Laws

noncomputable section

open scoped BigOperators

namespace Cert.KernelIdeal.OneDot

open Cert.KernelIdeal Cert.KernelIdeal.Gen Idealize.ShloMosaic Idealize.ShloMosaic.TcCoe Idealize.SL.Sem
open Idealize.ShloMosaic.Pipeline (Dat)
open Idealize.ShloMosaic.ValueIdx Cert.SampledLinear

/-! ## The product read at an index -/

/-- The body's dimension numbers: rows × contraction against contraction × columns, no batch axis. -/
abbrev dotK := dot_S1024x2048_S2048x256_S1024x256_1_0_0_1_n_n

/-- The left operand's row is the output's row. -/
theorem lhs_row (i : S1024x256.Idx) (r : dotK.contr.Idx) : (dotK.lhsIdx i r 0).val = (i 0).val := by
  unfold DotDims.lhsIdx
  rw [dif_neg (show ¬(0 : Fin S1024x2048.rank) ∈ dotK.lhsBatch by decide),
    dif_pos (show (0 : Fin S1024x2048.rank) ∈ dotK.lhsNonContracting by decide)]
  rfl

/-- The left operand's column is the contraction position. -/
theorem lhs_col (i : S1024x256.Idx) (r : dotK.contr.Idx) : (dotK.lhsIdx i r 1).val = (r ⟨0, by decide⟩).val :=
  dotK.lhsIdx_val_of_single rfl i r

/-- The right operand's row is the contraction position. -/
theorem rhs_row (i : S1024x256.Idx) (r : dotK.contr.Idx) : (dotK.rhsIdx i r 0).val = (r ⟨0, by decide⟩).val :=
  dotK.rhsIdx_val_of_single rfl i r

/-- The right operand's column is the output's column. -/
theorem rhs_col (i : S1024x256.Idx) (r : dotK.contr.Idx) : (dotK.rhsIdx i r 1).val = (i 1).val := by
  unfold DotDims.rhsIdx
  rw [dif_neg (show ¬(1 : Fin S2048x256.rank) ∈ dotK.rhsBatch by decide),
    dif_pos (show (1 : Fin S2048x256.rank) ∈ dotK.rhsNonContracting by decide)]
  rfl

/-- The product into the zero accumulator, at row `p` and column `q`: the sum over the contraction positions `k` of
    the left operand at (p, k) times the right at (k, q). -/
theorem dot_apply (X : FVec Ideal S1024x2048 .f32) (W : FVec Ideal S2048x256 .f32) (p : Fin 1024) (q : Fin 256) :
    FloatOps.matmul dotK none X W (constant (F := Ideal) S1024x256 .f32 0x00000000#32) (ix2 p q)
      = ∑ k : Fin 2048, X (ix2 p k) * W (ix2 k q) := by
  rw [Ideal.matmul_constant_zero_apply, ← Equiv.sum_comp (contrEquiv1 dotK 2048 rfl rfl).symm]
  refine Finset.sum_congr rfl fun k _ => ?_
  have hk := contrEquiv1_symm_val dotK 2048 rfl rfl k
  have el : dotK.lhsIdx (ix2 p q) ((contrEquiv1 dotK 2048 rfl rfl).symm k) = ix2 p k := funext fun a => Fin.ext (by
    match a with
    | ⟨0, _⟩ => exact lhs_row _ _
    | ⟨1, _⟩ => exact (lhs_col _ _).trans hk)
  have er : dotK.rhsIdx (ix2 p q) ((contrEquiv1 dotK 2048 rfl rfl).symm k) = ix2 k q := funext fun a => Fin.ext (by
    match a with
    | ⟨0, _⟩ => exact (rhs_row _ _).trans hk
    | ⟨1, _⟩ => exact rhs_col _ _)
  rw [el, er]

/-- A one-row tile laid along every row, at (p, q): the row's entry at q. -/
theorem row_apply (v : S1x256.Idx → EReal) (p : Fin 1024) (q : Fin 256) :
    broadcastTo S1024x256 v broadcasts_S1x256_S1024x256 (ix2 p q) = v (ix2 0 q) :=
  broadcastTo_apply v _ (ix2 p q) (ix2 0 q) (fun a => by
    match a with
    | ⟨0, _⟩ => rfl
    | ⟨1, _⟩ => rfl)

/-- THE BODY'S STORED VALUE at row `p`, column `q` of its tile, from the blocks it loads. -/
theorem body_apply (cg wmu wsig eps : FVec Ideal S2048x256 .f32) (bmu bsig epsb : FVec Ideal S1x256 .f32)
    (x : FVec Ideal S1024x2048 .f32) (p : Fin 1024) (q : Fin 256) :
    k0_pay1 cg wmu wsig eps bmu bsig epsb x (ix2 p q)
      = (∑ k : Fin 2048, x (ix2 p k) * (cg (ix2 k q) * (wmu (ix2 k q) + wsig (ix2 k q) * eps (ix2 k q))))
        + (bmu (ix2 0 q) + bsig (ix2 0 q) * epsb (ix2 0 q)) := by
  unfold k0_pay1
  show FloatOps.matmul dotK none x (mulf cg (addf wmu (mulf wsig eps))) (constant (F := Ideal) S1024x256 .f32 0x00000000#32) (ix2 p q)
      + broadcastTo S1024x256 (addf bmu (mulf bsig epsb)) broadcasts_S1x256_S1024x256 (ix2 p q) = _
  rw [dot_apply, row_apply]
  rfl

/-! ## The blocks the body loads, as entries of the argument arrays -/

theorem hz : (![0, 0] : Fin 2 → Nat) = fun _ => 0 := funext fun a => by fin_cases a <;> rfl

/-- Point `t` is output-column tile `t`. -/
def tile (t : Fin cfg0.N) : Fin 8 := ⟨t.val, lt_of_lt_of_eq t.isLt N_0⟩

/-- The printed index maps over the eight points: `x`'s block never moves; every other block sits at row block 0 and
    column tile `t`. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)

variable (m : (ℓ : Loc nD τ sig) → Buf (Elt Ideal) ℓ) (ρ : Dev nD → PrngReg)

/-- `x`'s block at any point is all of `x`. -/
theorem x_read (c : Dev nD) (t : Fin cfg0.N) (p : Fin 1024) (k : Fin 2048) :
    (iblk m c 0 t : FVec Ideal S1024x2048 .f32) (ix2 p k) = m ((c : Thread nD τ).loc main_arg0) (ix2 p k) := by
  obtain ⟨e0, e1⟩ := idx0 t
  show V m c main_arg0 (((cfg0.win 0).blk t).view.emb (ix2 p k)) = V m c main_arg0 (ix2 p k)
  refine congrArg _ (funext fun a => Fin.ext ?_)
  match a with
  | ⟨0, _⟩ => show win0_0.index t (0 : Fin 2) * 1024 + 1 * p.val = p.val; rw [e0]; omega
  | ⟨1, _⟩ => show win0_0.index t (1 : Fin 2) * 2048 + 1 * k.val = k.val; rw [e1]; omega

/-- `cγ`'s block at point `t`: all rows, the columns of tile `t`. -/
theorem cg_read (c : Dev nD) (t : Fin cfg0.N) (k : Fin 2048) (q : Fin 256) :
    (iblk m c 1 t : FVec Ideal S2048x256 .f32) (ix2 k q) = m ((c : Thread nD τ).loc main_arg1) (ix2 k (col (tile t) q)) := by
  obtain ⟨e0, e1⟩ := idx1 t
  show V m c main_arg1 (((cfg0.win 1).blk t).view.emb (ix2 k q)) = V m c main_arg1 (ix2 k (col (tile t) q))
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 256 + 1 * q.val = 256 * t.val + q.val; rw [e1]; omega

/-- `μ`'s block likewise. -/
theorem wmu_read (c : Dev nD) (t : Fin cfg0.N) (k : Fin 2048) (q : Fin 256) :
    (iblk m c 2 t : FVec Ideal S2048x256 .f32) (ix2 k q) = m ((c : Thread nD τ).loc main_arg2) (ix2 k (col (tile t) q)) := by
  obtain ⟨e0, e1⟩ := idx2 t
  show V m c main_arg2 (((cfg0.win 2).blk t).view.emb (ix2 k q)) = V m c main_arg2 (ix2 k (col (tile t) q))
  refine congrArg _ (funext fun a => Fin.ext ?_)
  match a with
  | ⟨0, _⟩ => show win0_2.index t (0 : Fin 2) * 2048 + 1 * k.val = k.val; rw [e0]; omega
  | ⟨1, _⟩ => show win0_2.index t (1 : Fin 2) * 256 + 1 * q.val = 256 * t.val + q.val; rw [e1]; omega

/-- `σ`'s block likewise. -/
theorem wsig_read (c : Dev nD) (t : Fin cfg0.N) (k : Fin 2048) (q : Fin 256) :
    (iblk m c 3 t : FVec Ideal S2048x256 .f32) (ix2 k q) = m ((c : Thread nD τ).loc main_arg3) (ix2 k (col (tile t) q)) := by
  obtain ⟨e0, e1⟩ := idx3 t
  show V m c main_arg3 (((cfg0.win 3).blk t).view.emb (ix2 k q)) = V m c main_arg3 (ix2 k (col (tile t) q))
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 256 + 1 * q.val = 256 * t.val + q.val; rw [e1]; omega

/-- `ε`'s block likewise. -/
theorem eps_read (c : Dev nD) (t : Fin cfg0.N) (k : Fin 2048) (q : Fin 256) :
    (iblk m c 4 t : FVec Ideal S2048x256 .f32) (ix2 k q) = m ((c : Thread nD τ).loc main_arg4) (ix2 k (col (tile t) q)) := by
  obtain ⟨e0, e1⟩ := idx4 t
  show V m c main_arg4 (((cfg0.win 4).blk t).view.emb (ix2 k q)) = V m c main_arg4 (ix2 k (col (tile t) q))
  refine congrArg _ (funext fun a => Fin.ext ?_)
  match a with
  | ⟨0, _⟩ => show win0_4.index t (0 : Fin 2) * 2048 + 1 * k.val = k.val; rw [e0]; omega
  | ⟨1, _⟩ => show win0_4.index t (1 : Fin 2) * 256 + 1 * q.val = 256 * t.val + q.val; rw [e1]; omega

/-- `μb`'s block at point `t`: the one row, the columns of tile `t`. -/
theorem bmu_read (c : Dev nD) (t : Fin cfg0.N) (q : Fin 256) :
    (iblk m c 5 t : FVec Ideal S1x256 .f32) (ix2 0 q) = m ((c : Thread nD τ).loc main_arg5) (ix2 0 (col (tile t) q)) := by
  obtain ⟨e0, e1⟩ := idx5 t
  show V m c main_arg5 (((cfg0.win 5).blk t).view.emb (ix2 0 q)) = V m c main_arg5 (ix2 0 (col (tile t) q))
  refine congrArg _ (funext fun a => Fin.ext ?_)
  match a with
  | ⟨0, _⟩ => show win0_5.index t (0 : Fin 2) * 1 + 1 * 0 = 0; rw [e0]
  | ⟨1, _⟩ => show win0_5.index t (1 : Fin 2) * 256 + 1 * q.val = 256 * t.val + q.val; rw [e1]; omega

/-- `σb`'s block likewise. -/
theorem bsig_read (c : Dev nD) (t : Fin cfg0.N) (q : Fin 256) :
    (iblk m c 6 t : FVec Ideal S1x256 .f32) (ix2 0 q) = m ((c : Thread nD τ).loc main_arg6) (ix2 0 (col (tile t) q)) := by
  obtain ⟨e0, e1⟩ := idx6 t
  show V m c main_arg6 (((cfg0.win 6).blk t).view.emb (ix2 0 q)) = V m c main_arg6 (ix2 0 (col (tile t) q))
  refine congrArg _ (funext fun a => Fin.ext ?_)
  match a with
  | ⟨0, _⟩ => show win0_6.index t (0 : Fin 2) * 1 + 1 * 0 = 0; rw [e0]
  | ⟨1, _⟩ => show win0_6.index t (1 : Fin 2) * 256 + 1 * q.val = 256 * t.val + q.val; rw [e1]; omega

/-- `εb`'s block likewise. -/
theorem epsb_read (c : Dev nD) (t : Fin cfg0.N) (q : Fin 256) :
    (iblk m c 7 t : FVec Ideal S1x256 .f32) (ix2 0 q) = m ((c : Thread nD τ).loc main_arg7) (ix2 0 (col (tile t) q)) := by
  obtain ⟨e0, e1⟩ := idx7 t
  show V m c main_arg7 (((cfg0.win 7).blk t).view.emb (ix2 0 q)) = V m c main_arg7 (ix2 0 (col (tile t) q))
  refine congrArg _ (funext fun a => Fin.ext ?_)
  match a with
  | ⟨0, _⟩ => show win0_7.index t (0 : Fin 2) * 1 + 1 * 0 = 0; rw [e0]
  | ⟨1, _⟩ => show win0_7.index t (1 : Fin 2) * 256 + 1 * q.val = 256 * t.val + q.val; rw [e1]; omega

/-! ## The tile a point writes back, and the result array -/

/-- The body's stored value, from blocks that are tile `o`'s entries of whole arrays, is the layer's tile `o`:
    at local index `y` it is the layer at the array index `i` with `y`'s row and column `256·o + y`'s column. -/
theorem tile_eq (X : Mat 1024 2048) (CG WMU WSIG EPS : Mat 2048 2048) (BMU BSIG EPSB : Mat 1 2048)
    (x : FVec Ideal S1024x2048 .f32) (cg wmu wsig eps : FVec Ideal S2048x256 .f32) (bmu bsig epsb : FVec Ideal S1x256 .f32)
    (o : Fin 8)
    (hx : ∀ (p : Fin 1024) (k : Fin 2048), x (ix2 p k) = X (ix2 p k))
    (hcg : ∀ (k : Fin 2048) (q : Fin 256), cg (ix2 k q) = CG (ix2 k (col o q)))
    (hwmu : ∀ (k : Fin 2048) (q : Fin 256), wmu (ix2 k q) = WMU (ix2 k (col o q)))
    (hwsig : ∀ (k : Fin 2048) (q : Fin 256), wsig (ix2 k q) = WSIG (ix2 k (col o q)))
    (heps : ∀ (k : Fin 2048) (q : Fin 256), eps (ix2 k q) = EPS (ix2 k (col o q)))
    (hbmu : ∀ q : Fin 256, bmu (ix2 0 q) = BMU (ix2 0 (col o q)))
    (hbsig : ∀ q : Fin 256, bsig (ix2 0 q) = BSIG (ix2 0 (col o q)))
    (hepsb : ∀ q : Fin 256, epsb (ix2 0 q) = EPSB (ix2 0 (col o q)))
    (y : S1024x256.Idx) (i : S1024x2048.Idx) (hi0 : (i 0).val = (y 0).val) (hi1 : (i 1).val = 256 * o.val + (y 1).val) :
    k0_pay1 (F := Ideal) cg wmu wsig eps bmu bsig epsb x y = layer X CG WMU WSIG EPS BMU BSIG EPSB i := by
  obtain ⟨p, q, rfl⟩ : ∃ (p : Fin 1024) (q : Fin 256), y = ix2 p q := ⟨y 0, y 1, eq_ix2 y⟩
  have hi : i = ix2 p (col o q) := funext fun a => Fin.ext (by
    match a with
    | ⟨0, _⟩ => exact hi0
    | ⟨1, _⟩ => exact hi1)
  subst hi
  rw [body_apply]
  show _ = (∑ k : Fin 2048, X (ix2 p k) * (CG (ix2 k (col o q)) * (WMU (ix2 k (col o q)) + WSIG (ix2 k (col o q)) * EPS (ix2 k (col o q)))))
      + (BMU (ix2 0 (col o q)) + BSIG (ix2 0 (col o q)) * EPSB (ix2 0 (col o q)))
  simp only [hx, hcg, hwmu, hwsig, heps, hbmu, hbsig, hepsb]

/-- What the result array ends holding: the layer of the argument arrays. -/
abbrev result (c : Dev nD) : Buf (Elt Ideal) ((c : Thread nD τ).loc main_v0) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT POINT `t` WRITES BACK is block `t` of the layer of the argument arrays. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S2048x256) hz, View.ld_unit_zero (S := S1x256) hz, View.ld_unit_zero (S := S1024x2048) hz]
  obtain ⟨e0, e1⟩ := idx8 t
  funext j
  show k0_pay1 (F := Ideal) (iblk m c 1 t) (iblk m c 2 t) (iblk m c 3 t) (iblk m c 4 t) (iblk m c 5 t) (iblk m c 6 t) (iblk m c 7 t) (iblk m c 0 t) j
      = result m c (((cfg0.win 8).blk t).view.emb j)
  refine tile_eq _ _ _ _ _ _ _ _ _ _ _ _ _ _ _ _ (tile t) (x_read m c t) (cg_read m c t) (wmu_read m c t) (wsig_read m c t)
    (eps_read m c t) (bmu_read m c t) (bsig_read m c t) (epsb_read m c t) j _ ?_ ?_
  · show win0_8.index t (0 : Fin 2) * 1024 + 1 * (j 0).val = (j 0).val
    rw [e0]; omega
  · show win0_8.index t (1 : Fin 2) * 256 + 1 * (j 1).val = 256 * t.val + (j 1).val
    rw [e1]; omega

/-- An index of the result array is in point `t`'s block iff each coordinate is in the block's range on its axis. -/
theorem mem_blk (t : Fin cfg0.N) (i : S1024x2048.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v0).slice (win0_8.rect t)).set ↔ _
  rw [View.set_slice_whole, Rect.mem_set_unit]
  exact Iff.rfl

/-- Every index of the result array lies in the block of the point of its column tile. -/
theorem cover (i : S1024x2048.Idx) :
    ∃ t : Fin cfg0.N, (cfg0.win 8).flush t = true ∧ i ∈ ((cfg0.win 8).blk t).view.set := by
  have h0 : (i 0).val < 1024 := (i 0).isLt
  have h1 : (i 1).val < 2048 := (i 1).isLt
  have hN : cfg0.N = 8 := N_0
  refine ⟨⟨(i 1).val / 256, by rw [hN]; omega⟩, flush0_8 _, ?_⟩
  rw [mem_blk]
  obtain ⟨e0, e1⟩ := idx8 ⟨(i 1).val / 256, by rw [hN]; omega⟩
  intro a
  match a with
  | ⟨0, _⟩ =>
    show win0_8.index _ (0 : Fin 2) * 1024 ≤ (i 0).val ∧ (i 0).val < win0_8.index _ (0 : Fin 2) * 1024 + 1024
    rw [e0]; omega
  | ⟨1, _⟩ =>
    show win0_8.index _ (1 : Fin 2) * 256 ≤ (i 1).val ∧ (i 1).val < win0_8.index _ (1 : Fin 2) * 256 + 256
    rw [e1]
    show (i 1).val / 256 * 256 ≤ (i 1).val ∧ (i 1).val < (i 1).val / 256 * 256 + 256
    omega

/-- THE RESULT ARRAY after the run: the layer of the argument arrays. -/
theorem final (c : Dev nD) : (dats m 0 c).arrAt 8 cfg0.N = result m c :=
  (dats m 0 c).arrAt_eq_of_cover 8 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.OneDot

end
-- ==== Proof.BlockedPieces.lean ====
/-
  The reference's body, case by case, as values. The reference runs 32 grid points: 8 tiles of 256 output columns
  times 4 blocks of 512 contraction positions, the contraction block moving fastest. Its body keeps a 1024 × 256
  accumulator in a scratch buffer that lives across the points:

    * first contraction block (case A): the accumulator is set to zero, then the block's partial product is added;
    * a middle block (case B): the block's partial product is added to what the point before left;
    * last block (case C): the same, and then the accumulator plus the sampled bias's tile is stored to the output.

  Each store covers its whole buffer, so what a case leaves in the scratch (and, in case C, in the output's buffer)
  is the stored value itself: `acc + x_blk · w_blk` with `acc` zero (A) or the previous contents (B, C), and for the
  output that value plus the bias tile. Stated for any float instance; the arithmetic is opened elsewhere.
-/
import proofs.«159107_g2000605425660429_pallaspilot1_180_9_alg».proof.Proof.Gen.ReferenceIdeal.Value
import Idealize.ShloMosaic.Lib.Pipeline.Value
import Idealize.ShloMosaic.Lib.Tactic

noncomputable section

namespace Cert.ReferenceIdeal.Blocked

open Cert.ReferenceIdeal Cert.ReferenceIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- One accumulation step: the accumulator `acc` plus the partial product of the `x` block with the sampled weight
    block `cγ · (μ + σ · ε)` (the body's second stored value, over named operands). -/
abbrev step (acc : Vec F S1024x256 .f32) (x : Vec F S1024x512 .f32) (cg wmu wsig eps : Vec F S512x256 .f32) :
    Vec F S1024x256 .f32 :=
  k0_pay2 cg wmu wsig eps acc x

/-- The accumulator plus the sampled bias tile `μb + σb · εb` laid along every row (the body's third stored value). -/
abbrev emit (acc : Vec F S1024x256 .f32) (bmu bsig epsb : Vec F S1x256 .f32) : Vec F S1024x256 .f32 :=
  k0_pay3 acc bmu bsig epsb

/-- The zero accumulator the first contraction block starts from (the body's first stored value). -/
abbrev zeroAcc : Vec F S1024x256 .f32 := k0_pay1

/-- CASE B, the scratch: one step from what the point before left. -/
theorem scratch_B (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i)
    (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = step xs0 x0 x1 x2 x3 x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz]
  simp only [View.readAt_eq_ld, harg2.read_unread, harg3.read_unread, harg4.read_unread, harg5.read_unread,
    harg6.read_unread, harg11.read_unread, View.ld_unit_zero (S := S512x256) hz, View.ld_unit_zero (S := S1024x256) hz,
    View.ld_unit_zero (S := S1024x512) hz]

/-- CASE A, the scratch: one step from zero (the zero store is read back before the sum). -/
theorem scratch_A (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i)
    (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step zeroAcc x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread,
    harg6.read_unread, View.ld_unit_zero (S := S512x256) hz, View.ld_unit_zero (S := S1024x512) hz]

/-- CASE C, the scratch: one step from what the point before left, as in case B. -/
theorem scratch_C (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = step xs0 x0 x1 x2 x3 x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread,
    harg6.read_unread, harg11.read_unread, View.ld_unit_zero (S := S512x256) hz, View.ld_unit_zero (S := S1024x256) hz,
    View.ld_unit_zero (S := S1024x512) hz]

/-- CASE C, the output's buffer: that last step's accumulator (read back from the scratch) plus the bias tile. -/
theorem output_C (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i)
    (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = emit (step xs0 x0 x1 x2 x3 x4) x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S1024x256) _ hz]
  simp only [View.readAt_eq_ld, harg2.read_unread, harg3.read_unread, harg4.read_unread, harg5.read_unread,
    harg6.read_unread, harg7.read_unread, harg8.read_unread, harg9.read_unread, harg11.read_unread,
    View.ld_unit_zero (S := S512x256) hz, View.ld_unit_zero (S := S1024x256) hz, View.ld_unit_zero (S := S1024x512) hz,
    View.ld_unit_zero (S := S1x256) hz]

end Cert.ReferenceIdeal.Blocked

end
-- ==== Proof.BlockedDot.lean ====
/-
  The reference's three stored values read at an index, at the ideal values:

    * the zero accumulator is 0 at every entry;
    * one accumulation step at (p, q) is the accumulator's entry plus the sum over the block's 512 contraction
      positions `kk` of `x_blk[p, kk] · (cγ_blk[kk, q] · (μ_blk[kk, q] + σ_blk[kk, q] · ε_blk[kk, q]))` — the
      product into a zero accumulator is a plain sum, with no order left in it;
    * the emission at (p, q) is the accumulator's entry plus `μb[q] + σb[q] · εb[q]`.
-/
import proofs.«159107_g2000605425660429_pallaspilot1_180_9_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.BlockDot

open Cert.ReferenceIdeal Cert.ReferenceIdeal.Gen Idealize.ShloMosaic Idealize.ShloMosaic.ValueIdx

/-- The body's dimension numbers: rows × one contraction block against that block × columns, no batch axis. -/
abbrev dotB := dot_S1024x512_S512x256_S1024x256_1_0_0_1_n_n

/-- The left operand's row is the output's row. -/
theorem lhs_row (i : S1024x256.Idx) (r : dotB.contr.Idx) : (dotB.lhsIdx i r 0).val = (i 0).val := by
  unfold DotDims.lhsIdx
  rw [dif_neg (show ¬(0 : Fin S1024x512.rank) ∈ dotB.lhsBatch by decide),
    dif_pos (show (0 : Fin S1024x512.rank) ∈ dotB.lhsNonContracting by decide)]
  rfl

/-- The left operand's column is the contraction position. -/
theorem lhs_col (i : S1024x256.Idx) (r : dotB.contr.Idx) : (dotB.lhsIdx i r 1).val = (r ⟨0, by decide⟩).val :=
  dotB.lhsIdx_val_of_single rfl i r

/-- The right operand's row is the contraction position. -/
theorem rhs_row (i : S1024x256.Idx) (r : dotB.contr.Idx) : (dotB.rhsIdx i r 0).val = (r ⟨0, by decide⟩).val :=
  dotB.rhsIdx_val_of_single rfl i r

/-- The right operand's column is the output's column. -/
theorem rhs_col (i : S1024x256.Idx) (r : dotB.contr.Idx) : (dotB.rhsIdx i r 1).val = (i 1).val := by
  unfold DotDims.rhsIdx
  rw [dif_neg (show ¬(1 : Fin S512x256.rank) ∈ dotB.rhsBatch by decide),
    dif_pos (show (1 : Fin S512x256.rank) ∈ dotB.rhsNonContracting by decide)]
  rfl

/-- One block's product into the zero accumulator, at row `p` and column `q`: the sum over the block's contraction
    positions `kk` of the left operand at (p, kk) times the right at (kk, q). -/
theorem dot_apply (X : FVec Ideal S1024x512 .f32) (W : FVec Ideal S512x256 .f32) (p : Fin 1024) (q : Fin 256) :
    FloatOps.matmul dotB none X W (constant (F := Ideal) S1024x256 .f32 0x00000000#32) (ix2 p q)
      = ∑ kk : Fin 512, X (ix2 p kk) * W (ix2 kk q) := by
  rw [Ideal.matmul_constant_zero_apply, ← Equiv.sum_comp (contrEquiv1 dotB 512 rfl rfl).symm]
  refine Finset.sum_congr rfl fun k _ => ?_
  have hk := contrEquiv1_symm_val dotB 512 rfl rfl k
  have el : dotB.lhsIdx (ix2 p q) ((contrEquiv1 dotB 512 rfl rfl).symm k) = ix2 p k := funext fun a => Fin.ext (by
    match a with
    | ⟨0, _⟩ => exact lhs_row _ _
    | ⟨1, _⟩ => exact (lhs_col _ _).trans hk)
  have er : dotB.rhsIdx (ix2 p q) ((contrEquiv1 dotB 512 rfl rfl).symm k) = ix2 k q := funext fun a => Fin.ext (by
    match a with
    | ⟨0, _⟩ => exact (rhs_row _ _).trans hk
    | ⟨1, _⟩ => exact rhs_col _ _)
  rw [el, er]

/-- A one-row tile laid along every row, at (p, q): the row's entry at q. -/
theorem row_apply (v : S1x256.Idx → EReal) (p : Fin 1024) (q : Fin 256) :
    broadcastTo S1024x256 v broadcasts_S1x256_S1024x256 (ix2 p q) = v (ix2 0 q) :=
  broadcastTo_apply v _ (ix2 p q) (ix2 0 q) (fun a => by
    match a with
    | ⟨0, _⟩ => rfl
    | ⟨1, _⟩ => rfl)

/-- The zero accumulator is 0 at every entry. -/
theorem zero_apply (i : S1024x256.Idx) : k0_pay1 (F := Ideal) i = 0 := by
  unfold k0_pay1
  show shapeCast S1024x256 (broadcast S1024x256 (Scalar.ofBits (F := Ideal) .f32 0x00000000#32)) shapeCasts_S1024x256_S1024x256 i = 0
  rw [shapeCast_self]
  exact Ideal.ofBits_zero_f32

/-- ONE ACCUMULATION STEP at (p, q): the accumulator's entry plus the block's partial sum. -/
theorem step_apply (cg wmu wsig eps : FVec Ideal S512x256 .f32) (acc : FVec Ideal S1024x256 .f32)
    (x : FVec Ideal S1024x512 .f32) (p : Fin 1024) (q : Fin 256) :
    k0_pay2 (F := Ideal) cg wmu wsig eps acc x (ix2 p q)
      = acc (ix2 p q) + ∑ kk : Fin 512, x (ix2 p kk) * (cg (ix2 kk q) * (wmu (ix2 kk q) + wsig (ix2 kk q) * eps (ix2 kk q))) := by
  unfold k0_pay2
  show shapeCast S1024x256 (addf acc (matmul dotB none x (mulf cg (addf wmu (mulf wsig eps)))
      (constant (F := Ideal) S1024x256 .f32 0x00000000#32))) shapeCasts_S1024x256_S1024x256 (ix2 p q) = _
  rw [shapeCast_self]
  show acc (ix2 p q) + FloatOps.matmul dotB none x (mulf cg (addf wmu (mulf wsig eps)))
      (constant (F := Ideal) S1024x256 .f32 0x00000000#32) (ix2 p q) = _
  rw [dot_apply]
  rfl

/-- THE EMISSION at (p, q): the accumulator's entry plus the sampled bias at q. -/
theorem emit_apply (acc : FVec Ideal S1024x256 .f32) (bmu bsig epsb : FVec Ideal S1x256 .f32) (p : Fin 1024) (q : Fin 256) :
    k0_pay3 (F := Ideal) acc bmu bsig epsb (ix2 p q)
      = acc (ix2 p q) + (bmu (ix2 0 q) + bsig (ix2 0 q) * epsb (ix2 0 q)) := by
  unfold k0_pay3
  show acc (ix2 p q) + broadcastTo S1024x256 (addf bmu (mulf bsig epsb)) broadcasts_S1x256_S1024x256 (ix2 p q) = _
  rw [row_apply]
  rfl

end Cert.ReferenceIdeal.BlockDot

end
-- ==== Proof.BlockedArray.lean ====
/-
  The reference at the ideal values, from its per-case values to its result array.

  The 32 grid points are (o, j): output-column tile `o = t / 4`, contraction block `j = t % 4`, with `j` moving
  fastest. At point (o, j) the body loads `x[:, 512j : 512j + 512]`, the four weight arrays' blocks
  `[512j : 512j + 512, 256o : 256o + 256]` and the three bias rows' tiles `[0, 256o : 256o + 256]`. The scratch
  accumulator is reset at j = 0 and stepped at every j, so after (o, 3) it holds, entry by entry,
  `(((0 + S₀) + S₁) + S₂) + S₃` with `S_j` the partial sum over contraction block `j`; only the points (o, 3) write
  the output's block back, and what they write is that accumulator plus the bias tile. Regrouping the four partial
  sums into one sum over all 2048 contraction positions (`SampledLinear.layer_by_blocks`: addition of extended reals
  is commutative and associative) makes that block the tile `o` of `SampledLinear.layer`; the eight tiles cover the
  result array.
-/
import proofs.«159107_g2000605425660429_pallaspilot1_180_9_alg».proof.Proof.BlockedPieces
import proofs.«159107_g2000605425660429_pallaspilot1_180_9_alg».proof.Proof.BlockedDot
import proofs.«159107_g2000605425660429_pallaspilot1_180_9_alg».proof.Proof.LayerSpec

noncomputable section

open scoped BigOperators

namespace Cert.ReferenceIdeal.Blocked

open Cert.ReferenceIdeal Cert.ReferenceIdeal.Gen Idealize.ShloMosaic Idealize.ShloMosaic.TcCoe Idealize.SL.Sem
open Idealize.ShloMosaic.Pipeline (Dat)
open Idealize.ShloMosaic.ValueIdx Cert.SampledLinear

/-! ## Points, and the blocks they load -/

/-- The output-column tile of point `t`. -/
def tile (t : Fin cfg0.N) : Fin 8 := ⟨t.val / 4, by have := lt_of_lt_of_eq t.isLt N_0; omega⟩

/-- The contraction block of point `t`. -/
def kblk (t : Fin cfg0.N) : Fin 4 := ⟨t.val % 4, Nat.mod_lt _ (by decide)⟩

/-- The printed index maps over the 32 points. -/
theorem idx0 : ∀ t : Fin cfg0.N, win0_0.index t (0 : Fin 2) = 0 ∧ win0_0.index t (1 : Fin 2) = t.val % 4 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 2) = t.val % 4 ∧ win0_2.index t (1 : Fin 2) = t.val / 4 :=
  (by decide +kernel : ∀ t : Fin grid0.N, _)
theorem idx3 : ∀ t : Fin cfg0.N, win0_3.index t (0 : Fin 2) = t.val % 4 ∧ win0_3.index t (1 : Fin 2) = t.val / 4 :=
  (by decide +kernel : ∀ t : Fin grid0.N, _)
theorem idx4 : ∀ t : Fin cfg0.N, win0_4.index t (0 : Fin 2) = t.val % 4 ∧ win0_4.index t (1 : Fin 2) = t.val / 4 :=
  (by decide +kernel : ∀ t : Fin grid0.N, _)
theorem idx5 : ∀ t : Fin cfg0.N, win0_5.index t (0 : Fin 2) = 0 ∧ win0_5.index t (1 : Fin 2) = t.val / 4 :=
  (by decide +kernel : ∀ t : Fin grid0.N, _)
theorem idx6 : ∀ t : Fin cfg0.N, win0_6.index t (0 : Fin 2) = 0 ∧ win0_6.index t (1 : Fin 2) = t.val / 4 :=
  (by decide +kernel : ∀ t : Fin grid0.N, _)
theorem idx7 : ∀ t : Fin cfg0.N, win0_7.index t (0 : Fin 2) = 0 ∧ win0_7.index t (1 : Fin 2) = t.val / 4 :=
  (by decide +kernel : ∀ t : Fin grid0.N, _)
theorem idx8 : ∀ t : Fin cfg0.N, win0_8.index t (0 : Fin 2) = 0 ∧ win0_8.index t (1 : Fin 2) = t.val / 4 :=
  (by decide +kernel : ∀ t : Fin grid0.N, _)

variable (m : (ℓ : Loc nD τ sig) → Buf (Elt Ideal) ℓ) (ρ : Dev nD → PrngReg)

/-- `x`'s block at point `t`: all rows, the contraction positions of block `t % 4`. -/
theorem x_read (c : Dev nD) (t : Fin cfg0.N) (p : Fin 1024) (kk : Fin 512) :
    (iblk m c 0 t : FVec Ideal S1024x512 .f32) (ix2 p kk) = m ((c : Thread nD τ).loc main_arg0) (ix2 p (kpos (kblk t) kk)) := by
  obtain ⟨e0, e1⟩ := idx0 t
  show V m c main_arg0 (((cfg0.win 0).blk t).view.emb (ix2 p kk)) = V m c main_arg0 (ix2 p (kpos (kblk t) kk))
  refine congrArg _ (funext fun a => Fin.ext ?_)
  match a with
  | ⟨0, _⟩ => show win0_0.index t (0 : Fin 2) * 1024 + 1 * p.val = p.val; rw [e0]; omega
  | ⟨1, _⟩ => show win0_0.index t (1 : Fin 2) * 512 + 1 * kk.val = 512 * (t.val % 4) + kk.val; rw [e1]; omega

/-- `cγ`'s block at point `t`: the contraction positions of block `t % 4`, the columns of tile `t / 4`. -/
theorem cg_read (c : Dev nD) (t : Fin cfg0.N) (kk : Fin 512) (q : Fin 256) :
    (iblk m c 1 t : FVec Ideal S512x256 .f32) (ix2 kk q)
      = m ((c : Thread nD τ).loc main_arg1) (ix2 (kpos (kblk t) kk) (col (tile t) q)) := by
  obtain ⟨e0, e1⟩ := idx1 t
  show V m c main_arg1 (((cfg0.win 1).blk t).view.emb (ix2 kk q)) = V m c main_arg1 (ix2 (kpos (kblk t) kk) (col (tile t) q))
  refine congrArg _ (funext fun a => Fin.ext ?_)
  match a with
  | ⟨0, _⟩ => show win0_1.index t (0 : Fin 2) * 512 + 1 * kk.val = 512 * (t.val % 4) + kk.val; rw [e0]; omega
  | ⟨1, _⟩ => show win0_1.index t (1 : Fin 2) * 256 + 1 * q.val = 256 * (t.val / 4) + q.val; rw [e1]; omega

/-- `μ`'s block likewise. -/
theorem wmu_read (c : Dev nD) (t : Fin cfg0.N) (kk : Fin 512) (q : Fin 256) :
    (iblk m c 2 t : FVec Ideal S512x256 .f32) (ix2 kk q)
      = m ((c : Thread nD τ).loc main_arg2) (ix2 (kpos (kblk t) kk) (col (tile t) q)) := by
  obtain ⟨e0, e1⟩ := idx2 t
  show V m c main_arg2 (((cfg0.win 2).blk t).view.emb (ix2 kk q)) = V m c main_arg2 (ix2 (kpos (kblk t) kk) (col (tile t) q))
  refine congrArg _ (funext fun a => Fin.ext ?_)
  match a with
  | ⟨0, _⟩ => show win0_2.index t (0 : Fin 2) * 512 + 1 * kk.val = 512 * (t.val % 4) + kk.val; rw [e0]; omega
  | ⟨1, _⟩ => show win0_2.index t (1 : Fin 2) * 256 + 1 * q.val = 256 * (t.val / 4) + q.val; rw [e1]; omega

/-- `σ`'s block likewise. -/
theorem wsig_read (c : Dev nD) (t : Fin cfg0.N) (kk : Fin 512) (q : Fin 256) :
    (iblk m c 3 t : FVec Ideal S512x256 .f32) (ix2 kk q)
      = m ((c : Thread nD τ).loc main_arg3) (ix2 (kpos (kblk t) kk) (col (tile t) q)) := by
  obtain ⟨e0, e1⟩ := idx3 t
  show V m c main_arg3 (((cfg0.win 3).blk t).view.emb (ix2 kk q)) = V m c main_arg3 (ix2 (kpos (kblk t) kk) (col (tile t) q))
  refine congrArg _ (funext fun a => Fin.ext ?_)
  match a with
  | ⟨0, _⟩ => show win0_3.index t (0 : Fin 2) * 512 + 1 * kk.val = 512 * (t.val % 4) + kk.val; rw [e0]; omega
  | ⟨1, _⟩ => show win0_3.index t (1 : Fin 2) * 256 + 1 * q.val = 256 * (t.val / 4) + q.val; rw [e1]; omega

/-- `ε`'s block likewise. -/
theorem eps_read (c : Dev nD) (t : Fin cfg0.N) (kk : Fin 512) (q : Fin 256) :
    (iblk m c 4 t : FVec Ideal S512x256 .f32) (ix2 kk q)
      = m ((c : Thread nD τ).loc main_arg4) (ix2 (kpos (kblk t) kk) (col (tile t) q)) := by
  obtain ⟨e0, e1⟩ := idx4 t
  show V m c main_arg4 (((cfg0.win 4).blk t).view.emb (ix2 kk q)) = V m c main_arg4 (ix2 (kpos (kblk t) kk) (col (tile t) q))
  refine congrArg _ (funext fun a => Fin.ext ?_)
  match a with
  | ⟨0, _⟩ => show win0_4.index t (0 : Fin 2) * 512 + 1 * kk.val = 512 * (t.val % 4) + kk.val; rw [e0]; omega
  | ⟨1, _⟩ => show win0_4.index t (1 : Fin 2) * 256 + 1 * q.val = 256 * (t.val / 4) + q.val; rw [e1]; omega

/-- `μb`'s block at point `t`: the one row, the columns of tile `t / 4`. -/
theorem bmu_read (c : Dev nD) (t : Fin cfg0.N) (q : Fin 256) :
    (iblk m c 5 t : FVec Ideal S1x256 .f32) (ix2 0 q) = m ((c : Thread nD τ).loc main_arg5) (ix2 0 (col (tile t) q)) := by
  obtain ⟨e0, e1⟩ := idx5 t
  show V m c main_arg5 (((cfg0.win 5).blk t).view.emb (ix2 0 q)) = V m c main_arg5 (ix2 0 (col (tile t) q))
  refine congrArg _ (funext fun a => Fin.ext ?_)
  match a with
  | ⟨0, _⟩ => show win0_5.index t (0 : Fin 2) * 1 + 1 * 0 = 0; rw [e0]
  | ⟨1, _⟩ => show win0_5.index t (1 : Fin 2) * 256 + 1 * q.val = 256 * (t.val / 4) + q.val; rw [e1]; omega

/-- `σb`'s block likewise. -/
theorem bsig_read (c : Dev nD) (t : Fin cfg0.N) (q : Fin 256) :
    (iblk m c 6 t : FVec Ideal S1x256 .f32) (ix2 0 q) = m ((c : Thread nD τ).loc main_arg6) (ix2 0 (col (tile t) q)) := by
  obtain ⟨e0, e1⟩ := idx6 t
  show V m c main_arg6 (((cfg0.win 6).blk t).view.emb (ix2 0 q)) = V m c main_arg6 (ix2 0 (col (tile t) q))
  refine congrArg _ (funext fun a => Fin.ext ?_)
  match a with
  | ⟨0, _⟩ => show win0_6.index t (0 : Fin 2) * 1 + 1 * 0 = 0; rw [e0]
  | ⟨1, _⟩ => show win0_6.index t (1 : Fin 2) * 256 + 1 * q.val = 256 * (t.val / 4) + q.val; rw [e1]; omega

/-- `εb`'s block likewise. -/
theorem epsb_read (c : Dev nD) (t : Fin cfg0.N) (q : Fin 256) :
    (iblk m c 7 t : FVec Ideal S1x256 .f32) (ix2 0 q) = m ((c : Thread nD τ).loc main_arg7) (ix2 0 (col (tile t) q)) := by
  obtain ⟨e0, e1⟩ := idx7 t
  show V m c main_arg7 (((cfg0.win 7).blk t).view.emb (ix2 0 q)) = V m c main_arg7 (ix2 0 (col (tile t) q))
  refine congrArg _ (funext fun a => Fin.ext ?_)
  match a with
  | ⟨0, _⟩ => show win0_7.index t (0 : Fin 2) * 1 + 1 * 0 = 0; rw [e0]
  | ⟨1, _⟩ => show win0_7.index t (1 : Fin 2) * 256 + 1 * q.val = 256 * (t.val / 4) + q.val; rw [e1]; omega

/-! ## One step over a block of whole arrays -/

/-- Five loaded blocks ARE contraction block `j` of column tile `o` of the whole arrays. -/
def IsBlock (X : Mat 1024 2048) (CG WMU WSIG EPS : Mat 2048 2048) (o : Fin 8) (j : Fin 4)
    (x : FVec Ideal S1024x512 .f32) (cg wmu wsig eps : FVec Ideal S512x256 .f32) : Prop :=
  (∀ (p : Fin 1024) (kk : Fin 512), x (ix2 p kk) = X (ix2 p (kpos j kk)))
  ∧ (∀ (kk : Fin 512) (q : Fin 256), cg (ix2 kk q) = CG (ix2 (kpos j kk) (col o q)))
  ∧ (∀ (kk : Fin 512) (q : Fin 256), wmu (ix2 kk q) = WMU (ix2 (kpos j kk) (col o q)))
  ∧ (∀ (kk : Fin 512) (q : Fin 256), wsig (ix2 kk q) = WSIG (ix2 (kpos j kk) (col o q)))
  ∧ (∀ (kk : Fin 512) (q : Fin 256), eps (ix2 kk q) = EPS (ix2 (kpos j kk) (col o q)))

/-- A step over such blocks adds, at (p, q), block `j`'s partial sum of row `p` against column `256·o + q` of the
    sampled weight. -/
theorem step_block {X : Mat 1024 2048} {CG WMU WSIG EPS : Mat 2048 2048} {o : Fin 8} {j : Fin 4}
    {x : FVec Ideal S1024x512 .f32} {cg wmu wsig eps : FVec Ideal S512x256 .f32}
    (b : IsBlock X CG WMU WSIG EPS o j x cg wmu wsig eps) (acc : FVec Ideal S1024x256 .f32) (p : Fin 1024) (q : Fin 256) :
    k0_pay2 (F := Ideal) cg wmu wsig eps acc x (ix2 p q)
      = acc (ix2 p q) + ∑ kk : Fin 512, X (ix2 p (kpos j kk)) * weight CG WMU WSIG EPS (kpos j kk) (col o q) := by
  obtain ⟨hx, hcg, hwmu, hwsig, heps⟩ := b
  rw [BlockDot.step_apply]
  unfold weight
  simp only [hx, hcg, hwmu, hwsig, heps]

/-- The blocks a point loads are its contraction block of its column tile. -/
theorem isBlock_at (c : Dev nD) (t : Fin cfg0.N) (o : Fin 8) (j : Fin 4) (ho : t.val / 4 = o.val) (hj : t.val % 4 = j.val) :
    IsBlock (m ((c : Thread nD τ).loc main_arg0)) (m ((c : Thread nD τ).loc main_arg1)) (m ((c : Thread nD τ).loc main_arg2))
      (m ((c : Thread nD τ).loc main_arg3)) (m ((c : Thread nD τ).loc main_arg4)) o j
      (iblk m c 0 t) (iblk m c 1 t) (iblk m c 2 t) (iblk m c 3 t) (iblk m c 4 t) := by
  have eo : tile t = o := Fin.ext ho
  have ej : kblk t = j := Fin.ext hj
  subst eo; subst ej
  exact ⟨x_read m c t, cg_read m c t, wmu_read m c t, wsig_read m c t, eps_read m c t⟩

/-! ## The accumulator across a tile's four points -/

/-- One step at point `t` from the accumulator `acc`. -/
abbrev stepAt (c : Dev nD) (acc : Vec Ideal S1024x256 .f32) (t : Fin cfg0.N) : Vec Ideal S1024x256 .f32 :=
  step acc (iblk m c 0 t) (iblk m c 1 t) (iblk m c 2 t) (iblk m c 3 t) (iblk m c 4 t)

/-- The contents after a point depend on the point's position only. -/
theorem outs_congr (c : Dev nD) {n n' : ℕ} (e : n = n') (h : n < cfg0.N) (h' : n' < cfg0.N) :
    outsAt0 m c n h = outsAt0 m c n' h' := by
  subst e; rfl

/-- After a tile's first point the scratch holds one step from zero. -/
theorem after_first (c : Dev nD) (t : Fin cfg0.N) (h0 : t.val % 4 = 0) :
    (outsAt0 m c t.val t.isLt).2 = stepAt m c zeroAcc t := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- After a middle point it holds one step from what the point before left. -/
theorem after_middle (c : Dev nD) (t : Fin cfg0.N) (h0 : ¬t.val % 4 = 0) (h1 : ¬t.val % 4 = 3) :
    (outsAt0 m c t.val t.isLt).2
      = stepAt m c (outsAt0 m c (t.val - 1) (Nat.lt_of_le_of_lt (Nat.sub_le _ _) t.isLt)).2 t := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2

/-- WHAT A TILE'S LAST POINT WRITES BACK: four steps from zero over the tile's four points, plus the bias tile. -/
theorem emitted (c : Dev nD) (t : Fin cfg0.N) (h1 : t.val % 4 = 3) (t1 t2 t3 : Fin cfg0.N)
    (e1 : t1.val = t.val - 1) (e2 : t2.val = t.val - 2) (e3 : t3.val = t.val - 3) :
    (dats m 0 c).flushed 8 t = (cfg0.win 8).cut (grid0.coords t)
      (emit (stepAt m c (stepAt m c (stepAt m c (stepAt m c zeroAcc t3) t2) t1) t) (iblk m c 5 t) (iblk m c 6 t) (iblk m c 7 t)) := by
  have h0 : ¬t.val % 4 = 0 := by omega
  have a3 : (outsAt0 m c t3.val t3.isLt).2 = stepAt m c zeroAcc t3 := after_first m c t3 (by omega)
  have a2 : (outsAt0 m c t2.val t2.isLt).2 = stepAt m c (stepAt m c zeroAcc t3) t2 := by
    rw [after_middle m c t2 (by omega) (by omega), outs_congr m c (show t2.val - 1 = t3.val by omega) _ t3.isLt, a3]
  have a1 : (outsAt0 m c t1.val t1.isLt).2 = stepAt m c (stepAt m c (stepAt m c zeroAcc t3) t2) t1 := by
    rw [after_middle m c t1 (by omega) (by omega), outs_congr m c (show t1.val - 1 = t2.val by omega) _ t2.isLt, a2]
  rw [Cert.ReferenceIdeal.Value.flushed8_C m c t h0 h1]
  refine congrArg _ ?_
  refine (output_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2).trans ?_
  rw [outs_congr m c (show t.val - 1 = t1.val by omega) _ t1.isLt, a1]

/-! ## The tile written back, and the result array -/

/-- Four steps from zero over the four contraction blocks of tile `o`, then the bias tile: the layer's tile `o`. -/
theorem tile_eq (X : Mat 1024 2048) (CG WMU WSIG EPS : Mat 2048 2048) (BMU BSIG EPSB : Mat 1 2048) (o : Fin 8)
    (x0 x1 x2 x3 : FVec Ideal S1024x512 .f32)
    (cg0 wmu0 wsig0 eps0 cg1 wmu1 wsig1 eps1 cg2 wmu2 wsig2 eps2 cg3 wmu3 wsig3 eps3 : FVec Ideal S512x256 .f32)
    (bmu bsig epsb : FVec Ideal S1x256 .f32)
    (b0 : IsBlock X CG WMU WSIG EPS o 0 x0 cg0 wmu0 wsig0 eps0) (b1 : IsBlock X CG WMU WSIG EPS o 1 x1 cg1 wmu1 wsig1 eps1)
    (b2 : IsBlock X CG WMU WSIG EPS o 2 x2 cg2 wmu2 wsig2 eps2) (b3 : IsBlock X CG WMU WSIG EPS o 3 x3 cg3 wmu3 wsig3 eps3)
    (hbmu : ∀ q : Fin 256, bmu (ix2 0 q) = BMU (ix2 0 (col o q)))
    (hbsig : ∀ q : Fin 256, bsig (ix2 0 q) = BSIG (ix2 0 (col o q)))
    (hepsb : ∀ q : Fin 256, epsb (ix2 0 q) = EPSB (ix2 0 (col o q)))
    (y : S1024x256.Idx) (i : S1024x2048.Idx) (hi0 : (i 0).val = (y 0).val) (hi1 : (i 1).val = 256 * o.val + (y 1).val) :
    k0_pay3 (F := Ideal) (k0_pay2 (F := Ideal) cg3 wmu3 wsig3 eps3 (k0_pay2 (F := Ideal) cg2 wmu2 wsig2 eps2
        (k0_pay2 (F := Ideal) cg1 wmu1 wsig1 eps1 (k0_pay2 (F := Ideal) cg0 wmu0 wsig0 eps0 (k0_pay1 (F := Ideal)) x0) x1) x2) x3)
        bmu bsig epsb y
      = layer X CG WMU WSIG EPS BMU BSIG EPSB i := by
  obtain ⟨p, q, rfl⟩ : ∃ (p : Fin 1024) (q : Fin 256), y = ix2 p q := ⟨y 0, y 1, eq_ix2 y⟩
  have hi : i = ix2 p (col o q) := funext fun a => Fin.ext (by
    match a with
    | ⟨0, _⟩ => exact hi0
    | ⟨1, _⟩ => exact hi1)
  subst hi
  rw [layer_by_blocks, BlockDot.emit_apply, step_block b3, step_block b2, step_block b1, step_block b0, BlockDot.zero_apply]
  unfold bias
  rw [hbmu, hbsig, hepsb]

/-- What the result array ends holding: the layer of the argument arrays. -/
abbrev result (c : Dev nD) : Buf (Elt Ideal) ((c : Thread nD τ).loc main_v0) :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT A POINT THAT WRITES BACK WRITES is its block of the layer of the argument arrays. -/
theorem flushed_eq (c : Dev nD) (t : Fin cfg0.N) (hf : (cfg0.win 8).flush t = true) :
    (dats m 0 c).flushed 8 t = ((cfg0.win 8).blk t).view.read (Elt Ideal) (result m c) := by
  have h1 : t.val % 4 = 3 := (flush0_8 t).mp hf
  have hN : t.val < 32 := lt_of_lt_of_eq t.isLt N_0
  have hN' : cfg0.N = 32 := N_0
  have l1 : t.val - 1 < cfg0.N := by omega
  have l2 : t.val - 2 < cfg0.N := by omega
  have l3 : t.val - 3 < cfg0.N := by omega
  have b0 := isBlock_at m c ⟨t.val - 3, l3⟩ (tile t) 0 (by show (t.val - 3) / 4 = t.val / 4; omega) (by show (t.val - 3) % 4 = 0; omega)
  have b1 := isBlock_at m c ⟨t.val - 2, l2⟩ (tile t) 1 (by show (t.val - 2) / 4 = t.val / 4; omega) (by show (t.val - 2) % 4 = 1; omega)
  have b2 := isBlock_at m c ⟨t.val - 1, l1⟩ (tile t) 2 (by show (t.val - 1) / 4 = t.val / 4; omega) (by show (t.val - 1) % 4 = 2; omega)
  have b3 := isBlock_at m c t (tile t) 3 rfl (by show t.val % 4 = 3; exact h1)
  rw [emitted m c t h1 ⟨t.val - 1, l1⟩ ⟨t.val - 2, l2⟩ ⟨t.val - 3, l3⟩ rfl rfl rfl]
  obtain ⟨e0, e1⟩ := idx8 t
  funext j
  have hi0 : ((((cfg0.win 8).blk t).view.emb j) 0).val = (j 0).val := by
    show win0_8.index t (0 : Fin 2) * 1024 + 1 * (j 0).val = (j 0).val
    rw [e0]; omega
  have hi1 : ((((cfg0.win 8).blk t).view.emb j) 1).val = 256 * (tile t).val + (j 1).val := by
    show win0_8.index t (1 : Fin 2) * 256 + 1 * (j 1).val = 256 * (t.val / 4) + (j 1).val
    rw [e1]; omega
  exact tile_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tile t)
    (iblk m c 0 ⟨t.val - 3, l3⟩) (iblk m c 0 ⟨t.val - 2, l2⟩) (iblk m c 0 ⟨t.val - 1, l1⟩) (iblk m c 0 t)
    (iblk m c 1 ⟨t.val - 3, l3⟩) (iblk m c 2 ⟨t.val - 3, l3⟩) (iblk m c 3 ⟨t.val - 3, l3⟩) (iblk m c 4 ⟨t.val - 3, l3⟩) (iblk m c 1 ⟨t.val - 2, l2⟩) (iblk m c 2 ⟨t.val - 2, l2⟩) (iblk m c 3 ⟨t.val - 2, l2⟩) (iblk m c 4 ⟨t.val - 2, l2⟩)
    (iblk m c 1 ⟨t.val - 1, l1⟩) (iblk m c 2 ⟨t.val - 1, l1⟩) (iblk m c 3 ⟨t.val - 1, l1⟩) (iblk m c 4 ⟨t.val - 1, l1⟩) (iblk m c 1 t) (iblk m c 2 t) (iblk m c 3 t) (iblk m c 4 t)
    (iblk m c 5 t) (iblk m c 6 t) (iblk m c 7 t) b0 b1 b2 b3 (bmu_read m c t) (bsig_read m c t) (epsb_read m c t)
    j (((cfg0.win 8).blk t).view.emb j) hi0 hi1

/-- An index of the result array is in point `t`'s block iff each coordinate is in the block's range on its axis. -/
theorem mem_blk (t : Fin cfg0.N) (i : S1024x2048.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v0).slice (win0_8.rect t)).set ↔ _
  rw [View.set_slice_whole, Rect.mem_set_unit]
  exact Iff.rfl

/-- Every index of the result array lies in the block written back at the last point of its column tile. -/
theorem cover (i : S1024x2048.Idx) :
    ∃ t : Fin cfg0.N, (cfg0.win 8).flush t = true ∧ i ∈ ((cfg0.win 8).blk t).view.set := by
  have h0 : (i 0).val < 1024 := (i 0).isLt
  have h1 : (i 1).val < 2048 := (i 1).isLt
  have hN : cfg0.N = 32 := N_0
  have hl : 4 * ((i 1).val / 256) + 3 < cfg0.N := by omega
  refine ⟨⟨4 * ((i 1).val / 256) + 3, hl⟩, (flush0_8 _).mpr (by show (4 * ((i 1).val / 256) + 3) % 4 = 3; omega), ?_⟩
  rw [mem_blk]
  obtain ⟨e0, e1⟩ := idx8 ⟨4 * ((i 1).val / 256) + 3, hl⟩
  intro a
  match a with
  | ⟨0, _⟩ =>
    show win0_8.index _ (0 : Fin 2) * 1024 ≤ (i 0).val ∧ (i 0).val < win0_8.index _ (0 : Fin 2) * 1024 + 1024
    rw [e0]; omega
  | ⟨1, _⟩ =>
    show win0_8.index _ (1 : Fin 2) * 256 ≤ (i 1).val ∧ (i 1).val < win0_8.index _ (1 : Fin 2) * 256 + 256
    rw [e1]
    show (4 * ((i 1).val / 256) + 3) / 4 * 256 ≤ (i 1).val ∧ (i 1).val < (4 * ((i 1).val / 256) + 3) / 4 * 256 + 256
    omega

/-- THE RESULT ARRAY after the run: the layer of the argument arrays. -/
theorem final (c : Dev nD) : (dats m 0 c).arrAt 8 cfg0.N = result m c :=
  (dats m 0 c).arrAt_eq_of_cover 8 (result m c) (flushed_eq m c) cover

/-- The reference's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.ReferenceIdeal.Value.run_blocks m ρ)

end Cert.ReferenceIdeal.Blocked

end
-- ==== Proof.lean ====
/- The sampled Bayesian linear layer, `y = x · (cγ ∘ (μ + σ ∘ ε)) + (μb + σb ∘ εb)` over f32[1024, 2048] × f32[2048, 2048],
   as two Pallas programs that tile the same 2048 output columns in eight tiles of 256:

     * the kernel takes, per tile, ONE product of all of `x` with the tile of the sampled weight over the whole
       contraction range of 2048, and adds the bias tile;
     * the reference splits the contraction range into four blocks of 512, keeps a running sum in a scratch buffer
       (zero, then one partial product added per block), and adds the bias tile after the fourth.

   At the ideal values a product into a zero accumulator is a plain sum over the contraction positions, so the two
   results differ only by how that sum is grouped: `∑_{k < 2048} a_k` against `(((0 + S₀) + S₁) + S₂) + S₃` with `S_j` the
   sum over block `j`. Addition of extended reals is commutative and associative with unit 0, so the two are equal
   at every input, finite or not: the precondition is never opened. Both programs' result arrays are the one
   function `SampledLinear.layer` of the eight argument arrays (Proof/LayerSpec.lean); the kernel's side is
   Proof/OneDot.lean, the reference's Proof/BlockedPieces.lean, Proof/BlockedDot.lean and Proof/BlockedArray.lean.
   The ideal pass rewrote nothing in the kernel, so its idealization is the kernel's own text read at the ideal values. -/
import proofs.«159107_g2000605425660429_pallaspilot1_180_9_alg».proof.Defs
import proofs.«159107_g2000605425660429_pallaspilot1_180_9_alg».proof.Proof.Gen.Kernel
import proofs.«159107_g2000605425660429_pallaspilot1_180_9_alg».proof.Proof.Gen.Kernel.Skeleton
import proofs.«159107_g2000605425660429_pallaspilot1_180_9_alg».proof.Proof.Gen.Kernel.Launch
import proofs.«159107_g2000605425660429_pallaspilot1_180_9_alg».proof.Proof.Gen.Kernel.Points
import proofs.«159107_g2000605425660429_pallaspilot1_180_9_alg».proof.Proof.Gen.Kernel.Frame
import proofs.«159107_g2000605425660429_pallaspilot1_180_9_alg».proof.Proof.Gen.KernelIdeal
import proofs.«159107_g2000605425660429_pallaspilot1_180_9_alg».proof.Proof.Gen.KernelIdeal.Skeleton
import proofs.«159107_g2000605425660429_pallaspilot1_180_9_alg».proof.Proof.Gen.KernelIdeal.Launch
import proofs.«159107_g2000605425660429_pallaspilot1_180_9_alg».proof.Proof.Gen.KernelIdeal.Points
import proofs.«159107_g2000605425660429_pallaspilot1_180_9_alg».proof.Proof.Gen.KernelIdeal.Frame
import proofs.«159107_g2000605425660429_pallaspilot1_180_9_alg».proof.Proof.Gen.ReferenceIdeal
import proofs.«159107_g2000605425660429_pallaspilot1_180_9_alg».proof.Proof.Gen.ReferenceIdeal.Skeleton
import proofs.«159107_g2000605425660429_pallaspilot1_180_9_alg».proof.Proof.Gen.ReferenceIdeal.Launch
import proofs.«159107_g2000605425660429_pallaspilot1_180_9_alg».proof.Proof.Gen.ReferenceIdeal.Points
import proofs.«159107_g2000605425660429_pallaspilot1_180_9_alg».proof.Proof.Gen.ReferenceIdeal.Frame
import proofs.«159107_g2000605425660429_pallaspilot1_180_9_alg».proof.Proof.Gen.Pre_finite_inputs
import proofs.«159107_g2000605425660429_pallaspilot1_180_9_alg».proof.Proof.Gen.KernelIdeal.Value
import proofs.«159107_g2000605425660429_pallaspilot1_180_9_alg».proof.Proof.Gen.ReferenceIdeal.Value
import proofs.«159107_g2000605425660429_pallaspilot1_180_9_alg».proof.Proof.OneDot
import proofs.«159107_g2000605425660429_pallaspilot1_180_9_alg».proof.Proof.BlockedArray
import Idealize.ShloMosaic.Adequacy
import Idealize.ShloMosaic.Init

noncomputable section

namespace Cert.Proof

open Idealize.ShloMosaic Idealize.SL.Sem Cert.Kernel

/-- Each program runs to the end without a fault and leaves its arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation of the kernel. -/
theorem preserves : Cert.preserves_Kernel_KernelIdeal := trivial

/-- From memories that agree on the eight arguments, both idealized programs end with the result array at
    `SampledLinear.layer` of the arguments: the kernel by one sum over the whole contraction range per entry, the
    reference by four partial sums added in order from zero, which is the same extended real. -/
theorem algebraic : Cert.algebraic_KernelIdeal_ReferenceIdeal := by
  intro m ρ m' ρ' _ hagree
  refine ⟨fun c => Cert.KernelIdeal.OneDot.result m c, Cert.KernelIdeal.OneDot.run m ρ, ?_⟩
  refine (θ_run Cert.ReferenceIdeal.defs _ _).mono (fun _ h c => ⟨(h c).1.trans ?_, (h c).2⟩)
    (Cert.ReferenceIdeal.Blocked.run m' ρ')
  obtain ⟨a0, a1, a2, a3, a4, a5, a6, a7⟩ := hagree c
  show Cert.SampledLinear.layer _ _ _ _ _ _ _ _ = Cert.SampledLinear.layer _ _ _ _ _ _ _ _
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
